-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x64 .f32) (main_arg8 : FVec F S64 .f32) (main_arg9 : FVec F S64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1200000 32) (main_arg2 : FVec F S1200000x64 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg2
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S64x128 : Shape := ⟨2, ![64, 128]⟩
abbrev S1x128 : Shape := ⟨2, ![1, 128]⟩
abbrev S1x64 : Shape := ⟨2, ![1, 64]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 29
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S100000x64, .f32⟩
  | .hbm, ⟨15, _⟩ => ⟨S1200000x1, .i32⟩
  | .hbm, ⟨16, _⟩ => ⟨S100000x64, .f32⟩
  | .hbm, ⟨17, _⟩ => ⟨S64x128, .f32⟩
  | .hbm, ⟨18, _⟩ => ⟨S64x128, .f32⟩
  | .hbm, ⟨19, _⟩ => ⟨S64x128, .bf16⟩
  | .hbm, ⟨20, _⟩ => ⟨S64x128, .bf16⟩
  | .hbm, ⟨21, _⟩ => ⟨S128x128, .bf16⟩
  | .hbm, ⟨22, _⟩ => ⟨S128x64, .bf16⟩
  | .hbm, ⟨23, _⟩ => ⟨S1x128, .f32⟩
  | .hbm, ⟨24, _⟩ => ⟨S1x128, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x64, .bf16⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1200000_S1x1200000_1_0 : S2x1200000.Slices ![1, 0] S1x1200000
  shapeCasts_S1x1200000_S1200000 : S1x1200000.ShapeCasts S1200000
  bcast_S_S100000x64 : S_.BroadcastsInDim S100000x64 (![] : Fin 0 → Fin S100000x64.rank)
  bcast_S1200000_S1200000x1_0 : S1200000.BroadcastsInDim S1200000x1 (![0] : Fin 1 → Fin S1200000x1.rank)
  slices_S128x128_S64x128_0_0 : S128x128.Slices ![0, 0] S64x128
  slices_S128x128_S64x128_64_0 : S128x128.Slices ![64, 0] S64x128
  bitsLt_bf16_f32 : FTy.bits .bf16 < FTy.bits .f32
  shapeCasts_S128_S1x128 : S128.ShapeCasts S1x128
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000x64_S1200000x1_S1200000x64_1_0_0_1_wf : ScatterDims.WF S100000x64 S1200000x1 S1200000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)

variable [Facts₀]

def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x64 : Shape := ⟨2, ![1200000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x128 : Shape := ⟨2, ![100000, 128]⟩
abbrev S1x128 : Shape := ⟨2, ![1, 128]⟩
abbrev S1x64 : Shape := ⟨2, ![1, 64]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S100000x64, .f32⟩
  | .hbm, ⟨15, _⟩ => ⟨S1200000x1, .i32⟩
  | .hbm, ⟨16, _⟩ => ⟨S100000x64, .f32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call1_cst : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  slices_S2x1200000_S1x1200000_1_0 : S2x1200000.Slices ![1, 0] S1x1200000
  shapeCasts_S1x1200000_S1200000 : S1x1200000.ShapeCasts S1200000
  bcast_S_S100000x64 : S_.BroadcastsInDim S100000x64 (![] : Fin 0 → Fin S100000x64.rank)
  bcast_S1200000_S1200000x1_0 : S1200000.BroadcastsInDim S1200000x1 (![0] : Fin 1 → Fin S1200000x1.rank)
  concatenates_S100000x64_S100000x64_S100000x128_d1 : Shape.Concatenates [S100000x64, S100000x64] S100000x128 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000x64_S1200000x1_S1200000x64_1_0_0_1_wf : ScatterDims.WF S100000x64 S1200000x1 S1200000x64 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibJoinedRows.lean ====
/-
  Two tables joined side by side, and a contraction along the joined rows.

  Tables X : [N, a] and Y : [N, b] joined along their second axis give Z : [N, a + b], whose row r is row r of X
  followed by row r of Y: Z (r, k) = X (r, k) for k < a, and Z (r, a + k) = Y (r, k) for k < b. A sum over the a + b
  positions of a joined row is the sum over the first a plus the sum over the last b, so a joined row contracted with
  a column of a + b entries is the row of X contracted with the column's first a entries plus the row of Y contracted
  with its last b: (X | Y) W = X W_top + Y W_bottom. The law uses only that addition is commutative and
  associative; it holds in any commutative additive monoid with a product, the extended reals included, with no
  condition on the entries.
-/
import Idealize.ShloMosaic.Lib.Pipeline.Value
import Idealize.ShloMosaic.Lib.ValueIdx

noncomputable section

open scoped BigOperators

namespace Cert.JoinedRows

open Idealize.ShloMosaic Idealize.ShloMosaic.ValueIdx

/-- Entry (r, k) of the join, k among the first a positions, is entry (r, k) of the first table. -/
theorem joined_left {α : Type} {N a b : Nat} (X : (⟨2, ![N, a]⟩ : Shape).Idx → α) (Y : (⟨2, ![N, b]⟩ : Shape).Idx → α)
    (h : Shape.Concatenates [(⟨2, ![N, a]⟩ : Shape), ⟨2, ![N, b]⟩] ⟨2, ![N, a + b]⟩ 1) (r : Fin N) (k : Fin a) :
    concatenate ⟨2, ![N, a + b]⟩ 1 [⟨⟨2, ![N, a]⟩, X⟩, ⟨⟨2, ![N, b]⟩, Y⟩] h (ix2 r (Fin.castAdd b k)) = X (ix2 r k) :=
  concatenate_pair_apply_left 1 X Y h (ix2 r (Fin.castAdd b k)) rfl (ix2 r k)
    (fun c => match c with | ⟨0, _⟩ => rfl | ⟨1, _⟩ => rfl)

/-- Entry (r, a + k) of the join is entry (r, k) of the second table. -/
theorem joined_right {α : Type} {N a b : Nat} (X : (⟨2, ![N, a]⟩ : Shape).Idx → α) (Y : (⟨2, ![N, b]⟩ : Shape).Idx → α)
    (h : Shape.Concatenates [(⟨2, ![N, a]⟩ : Shape), ⟨2, ![N, b]⟩] ⟨2, ![N, a + b]⟩ 1) (r : Fin N) (k : Fin b) :
    concatenate ⟨2, ![N, a + b]⟩ 1 [⟨⟨2, ![N, a]⟩, X⟩, ⟨⟨2, ![N, b]⟩, Y⟩] h (ix2 r (Fin.natAdd a k)) = Y (ix2 r k) :=
  concatenate_pair_apply_right 1 X Y h (ix2 r (Fin.natAdd a k)) rfl rfl (ix2 r k)
    (fun c hc => match c, hc with | ⟨0, _⟩, _ => rfl | ⟨1, _⟩, hc => (hc (Fin.ext rfl)).elim)
    (by show k.val + a = a + k.val; omega)

/-- A sum over a + b positions is the sum over the first a plus the sum over the last b. -/
theorem sum_split {M : Type*} [AddCommMonoid M] {a b : Nat} (f : Fin (a + b) → M) :
    ∑ k : Fin (a + b), f k = (∑ c : Fin a, f (Fin.castAdd b c)) + ∑ c : Fin b, f (Fin.natAdd a c) :=
  Fin.sum_univ_add f

/-- A row whose first a entries are x and last b entries are y, contracted with a column, is x contracted with the
    column's first a entries plus y contracted with its last b. -/
theorem split_contraction {M : Type*} [AddCommMonoid M] [Mul M] {a b : Nat} (x : Fin a → M) (y : Fin b → M)
    (row col : Fin (a + b) → M) (hx : ∀ c : Fin a, row (Fin.castAdd b c) = x c)
    (hy : ∀ c : Fin b, row (Fin.natAdd a c) = y c) :
    ∑ k : Fin (a + b), row k * col k
      = (∑ c : Fin a, x c * col (Fin.castAdd b c)) + ∑ c : Fin b, y c * col (Fin.natAdd a c) := by
  rw [sum_split]
  simp only [hx, hy]

end Cert.JoinedRows

end
-- ==== Proof.NodeUpdate.lean ====
/-
  The update of one graph node, as a function of one row of each table, over the extended reals.

  Node r has 64 features x_r and 64 aggregated edge features a_r (the sum of the features of the edges that end at r).
  The update sends the pair through three affine layers, the first two followed by a maximum with zero, then
  normalises the 64 results by their mean and their mean squared deviation, scales and shifts them entrywise, and
  adds x_r back:

      h1_j = max (sum_c x_c Wx_cj + sum_c a_c Wa_cj + b0_j, 0)        j < 128
      h2_j = max (sum_c h1_c W1_cj + b1_j, 0)                         j < 128
      h3_o = sum_c h2_c W2_co + b2_o                                  o < 64
      mu = (sum_k h3_k) / 64,   var = (sum_k (h3_k - mu)^2) / 64
      out_o = (h3_o - mu) * rsqrt (var + eps) * g_o + beta_o + x_o

  Wx and Wa are the upper and lower halves of one 128 x 128 matrix W0: the pair (x_r, a_r) laid side by side as one
  row of 128 entries and contracted with W0 gives the same number, because a sum over 128 indices is the sum over the
  first 64 plus the sum over the last 64 (split_contraction). No other law of arithmetic is needed, so nothing here
  asks the entries to be finite. The division is the extended reals' total one and rsqrt the total inverse square
  root; the three float words (zero, 64, eps) are kept as words.
-/
import Idealize.ShloMosaic.PureOps.Ideal
import Idealize.ShloMosaic.PureOps.Ideal.Laws
import Idealize.ShloMosaic.Lib.ValueIdx
import proofs.«167824_j31877247271255_2_alg».proof.Proof.LibJoinedRows

noncomputable section

open scoped BigOperators

namespace Cert.NodeUpdate

open Idealize.ShloMosaic Idealize.ShloMosaic.ValueIdx

/-- The word of zero. -/
abbrev zeroW : EReal := Ideal.ofBits .f32 0x00000000#32
/-- The word of 64, the number of entries of a normalised row. -/
abbrev widthW : EReal := Ideal.ofBits .f32 0x42800000#32
/-- The word added to the mean squared deviation before the inverse square root. -/
abbrev guardW : EReal := Ideal.ofBits .f32 0x3727C5AC#32

/-- The first layer: the node's features through the upper half of the weights, the aggregated edge features through
    the lower half, the bias, and the maximum with zero. -/
def hidden1 (xr ar : Fin 64 → EReal) (Wx Wa : Fin 64 → Fin 128 → EReal) (b : Fin 128 → EReal) : Fin 128 → EReal :=
  fun j => max (((∑ c : Fin 64, xr c * Wx c j) + (∑ c : Fin 64, ar c * Wa c j)) + b j) zeroW

/-- The second layer. -/
def hidden2 (h : Fin 128 → EReal) (W : Fin 128 → Fin 128 → EReal) (b : Fin 128 → EReal) : Fin 128 → EReal :=
  fun j => max ((∑ c : Fin 128, h c * W c j) + b j) zeroW

/-- The third layer, with no maximum. -/
def projected (h : Fin 128 → EReal) (W : Fin 128 → Fin 64 → EReal) (b : Fin 64 → EReal) : Fin 64 → EReal :=
  fun o => (∑ c : Fin 128, h c * W c o) + b o

/-- The mean of 64 entries: their sum divided by the word of 64. -/
def rowMean (h : Fin 64 → EReal) : EReal := Ideal.div (∑ k : Fin 64, h k) widthW

/-- The normalisation of a row, scaled by g and shifted by beta entrywise. -/
def normalised (h g beta : Fin 64 → EReal) : Fin 64 → EReal :=
  fun o => (h o - rowMean h) * Ideal.rsqrt (rowMean (fun k => (h k - rowMean h) * (h k - rowMean h)) + guardW) * g o
    + beta o

/-- The whole update of one node. -/
def rowOut (xr ar : Fin 64 → EReal) (Wx Wa : Fin 64 → Fin 128 → EReal) (b0 : Fin 128 → EReal)
    (W1 : Fin 128 → Fin 128 → EReal) (b1 : Fin 128 → EReal) (W2 : Fin 128 → Fin 64 → EReal)
    (b2 g beta : Fin 64 → EReal) : Fin 64 → EReal :=
  fun o => normalised (projected (hidden2 (hidden1 xr ar Wx Wa b0) W1 b1) W2 b2) g beta o + xr o

/-- Position c of the first 64 of 128. -/
abbrev lo (c : Fin 64) : Fin 128 := ⟨c.val, by have := c.isLt; omega⟩
/-- Position c of the last 64 of 128. -/
abbrev hi (c : Fin 64) : Fin 128 := ⟨64 + c.val, by have := c.isLt; omega⟩

/-- A sum over 128 indices is the sum over the first 64 plus the sum over the last 64. -/
theorem sum_halves {M : Type*} [AddCommMonoid M] (f : Fin 128 → M) :
    ∑ k : Fin 128, f k = (∑ c : Fin 64, f (lo c)) + ∑ c : Fin 64, f (hi c) :=
  Cert.JoinedRows.sum_split (a := 64) (b := 64) f

/-- A row of 128 entries whose first 64 are x and last 64 are a, contracted with one column of a 128-row matrix, is x
    contracted with the column's upper half plus a contracted with its lower half. -/
theorem split_contraction (xr ar : Fin 64 → EReal) (row col : Fin 128 → EReal)
    (hx : ∀ c : Fin 64, row (lo c) = xr c) (ha : ∀ c : Fin 64, row (hi c) = ar c) :
    ∑ k : Fin 128, row k * col k = (∑ c : Fin 64, xr c * col (lo c)) + ∑ c : Fin 64, ar c * col (hi c) :=
  Cert.JoinedRows.split_contraction (a := 64) (b := 64) xr ar row col hx ha

/-! ## Every node at once -/

/-- The update of every node from the tables as a kernel holds them: the weights' two halves as two matrices, each
    bias and the scale and shift as a one-row matrix. -/
def nodeOut (X A : (⟨2, ![100000, 64]⟩ : Shape).Idx → EReal) (Wx Wa : (⟨2, ![64, 128]⟩ : Shape).Idx → EReal)
    (B0 : (⟨2, ![1, 128]⟩ : Shape).Idx → EReal) (W1 : (⟨2, ![128, 128]⟩ : Shape).Idx → EReal)
    (B1 : (⟨2, ![1, 128]⟩ : Shape).Idx → EReal) (W2 : (⟨2, ![128, 64]⟩ : Shape).Idx → EReal)
    (B2 Gm Bt : (⟨2, ![1, 64]⟩ : Shape).Idx → EReal) : (⟨2, ![100000, 64]⟩ : Shape).Idx → EReal :=
  fun i => rowOut (fun c => X (ix2 (i 0 : Fin 100000) c)) (fun c => A (ix2 (i 0 : Fin 100000) c))
    (fun c j => Wx (ix2 c j)) (fun c j => Wa (ix2 c j)) (fun j => B0 (ix2 (0 : Fin 1) j))
    (fun c j => W1 (ix2 c j)) (fun j => B1 (ix2 (0 : Fin 1) j)) (fun c o => W2 (ix2 c o))
    (fun o => B2 (ix2 (0 : Fin 1) o)) (fun o => Gm (ix2 (0 : Fin 1) o)) (fun o => Bt (ix2 (0 : Fin 1) o)) (i 1 : Fin 64)

/-- The same from the tables as the caller gives them: one 128 x 128 first-layer matrix, each bias and the scale and
    shift a vector. -/
def nodeOutOf (X A : (⟨2, ![100000, 64]⟩ : Shape).Idx → EReal) (W0 : (⟨2, ![128, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 g beta : (⟨1, ![64]⟩ : Shape).Idx → EReal) : (⟨2, ![100000, 64]⟩ : Shape).Idx → EReal :=
  fun i => rowOut (fun c => X (ix2 (i 0 : Fin 100000) c)) (fun c => A (ix2 (i 0 : Fin 100000) c))
    (fun c j => W0 (ix2 (lo c) j)) (fun c j => W0 (ix2 (hi c) j)) (fun j => b0 (ix1 j))
    (fun c j => W1 (ix2 c j)) (fun j => b1 (ix1 j)) (fun c o => W2 (ix2 c o))
    (fun o => b2 (ix1 o)) (fun o => g (ix1 o)) (fun o => beta (ix1 o)) (i 1 : Fin 64)

end Cert.NodeUpdate

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.BlockRows.lean ====
/-
  What one grid point's body computes, read at one entry of its block of 5000 rows.

  The body multiplies the block of node features and the block of aggregated edge features by the two halves of the
  first weight matrix, adds the bias row and takes the maximum with zero; does the same with the second matrix;
  multiplies by the third; and then normalises each row of 64 results. Every step acts on a row by itself: a matrix
  product into the zero matrix is, at (q, o), the sum over c of A (q, c) * B (c, o); a one-row matrix copied down the
  block reads its entry (0, o); a sum along the rows, laid out as a column and copied along the row, reads the sum of
  row q. So entry (q, o) of what the body stores is the node update (NodeUpdate.rowOut) of row q of the two blocks.
  The changes of float format on the way are the identity on extended reals.
-/
import proofs.«167824_j31877247271255_2_alg».proof.Proof.Gen.KernelIdeal.Skeleton
import proofs.«167824_j31877247271255_2_alg».proof.Proof.NodeUpdate
import proofs.«167824_j31877247271255_2_alg».proof.Proof.LibPlainMatmul
import proofs.«167824_j31877247271255_2_alg».proof.Proof.LibRowLayout
import proofs.«167824_j31877247271255_2_alg».proof.Proof.LibRowForms
import proofs.«167824_j31877247271255_2_alg».proof.Proof.LibColumnForms
import Idealize.ShloMosaic.Lib.Pipeline.Value
import Idealize.ShloMosaic.Lib.ValueIdx
import Idealize.ShloMosaic.PureOps.Ideal.Laws

noncomputable section

open scoped BigOperators

namespace Cert.KernelIdeal.BlockRows

open Cert.KernelIdeal Cert.KernelIdeal.Gen Idealize.ShloMosaic Idealize.ShloMosaic.TcCoe Idealize.ShloMosaic.ValueIdx
open Cert.NodeUpdate Cert.PointConv Idealize.ShloMosaic.RowLayout Cert.RowForms Cert.ColumnForms

/-! ## Rows copied down the block, and the inverse square root at an index -/

/-- A one-row matrix, cast to its own shape and copied down the 5000 rows, reads its entry (0, j) at (q, j). -/
theorem biasRow_apply {n : Nat} (b : (⟨2, ![1, n]⟩ : Shape).Idx → EReal)
    (hs : (⟨2, ![1, n]⟩ : Shape).ShapeCasts ⟨2, ![1, n]⟩) (hb : (⟨2, ![1, n]⟩ : Shape).Broadcasts ⟨2, ![5000, n]⟩)
    (q : Fin 5000) (j : Fin n) :
    broadcastTo ⟨2, ![5000, n]⟩ (shapeCast ⟨2, ![1, n]⟩ b hs) hb (ix2 q j) = b (ix2 (0 : Fin 1) j) := by
  rw [rowBroadcast_apply, shapeCast_self]

/-- The inverse square root of an array at an index is that of the entry. -/
theorem rsqrt_apply {s : Shape} (a : FVec Ideal s .f32) (i : s.Idx) : rsqrt a i = Ideal.rsqrt (a i) := rfl

/-! ## The three products -/

/-! Each printed record of dimension numbers is the plain one (the left operand contracted on its second axis, the
right one on its first, no batch axis), so a product into the zero matrix is the sum over the shared axis. -/

theorem product1 {φ₁ φ₂ : FTy} (A : FVec Ideal S5000x64 φ₁) (B : FVec Ideal S64x128 φ₂) (q : Fin 5000) (j : Fin 128) :
    matmul dot_S5000x64_S64x128_S5000x128_1_0_0_1_n_n none A B (constant (F := Ideal) S5000x128 .f32 0x00000000#32) (ix2 q j)
      = ∑ c : Fin 64, A (ix2 q c) * B (ix2 c j) :=
  plainMatmul_zero_apply dot_S5000x64_S64x128_S5000x128_1_0_0_1_n_n_wf none A B q j

theorem product2 {φ₁ φ₂ : FTy} (A : FVec Ideal S5000x128 φ₁) (B : FVec Ideal S128x128 φ₂) (q : Fin 5000) (j : Fin 128) :
    matmul dot_S5000x128_S128x128_S5000x128_1_0_0_1_n_n none A B (constant (F := Ideal) S5000x128 .f32 0x00000000#32) (ix2 q j)
      = ∑ c : Fin 128, A (ix2 q c) * B (ix2 c j) :=
  plainMatmul_zero_apply dot_S5000x128_S128x128_S5000x128_1_0_0_1_n_n_wf none A B q j

theorem product3 {φ₁ φ₂ : FTy} (A : FVec Ideal S5000x128 φ₁) (B : FVec Ideal S128x64 φ₂) (q : Fin 5000) (o : Fin 64) :
    matmul dot_S5000x128_S128x64_S5000x64_1_0_0_1_n_n none A B (constant (F := Ideal) S5000x64 .f32 0x00000000#32) (ix2 q o)
      = ∑ c : Fin 128, A (ix2 q c) * B (ix2 c o) :=
  plainMatmul_zero_apply dot_S5000x128_S128x64_S5000x64_1_0_0_1_n_n_wf none A B q o

/-! ## The two hidden layers of a block -/

section AnyInstance
variable {F : FTy → Type} [FloatOps F]

/-- The first layer of a block: both products, the bias row, the maximum with zero. -/
def layer1 (v0 v1 : Vec F S5000x64 .f32) (v5 v8 : Vec F S64x128 .bf16) (v12 : Vec F S1x128 .f32) :
    FVec F S5000x128 .f32 :=
  have v2 : FVec F S5000x64 .f32 := shapeCast S5000x64 v1 shapeCasts_S5000x64_S5000x64
  have v3 : FVec F S5000x64 .bf16 := truncf .bf16 v0 bitsLt_bf16_f32
  have v4 : FVec F S5000x64 .bf16 := truncf .bf16 v2 bitsLt_bf16_f32
  have v6 : FVec F S64x128 .bf16 := shapeCast S64x128 v5 shapeCasts_S64x128_S64x128
  have v9 : FVec F S64x128 .bf16 := shapeCast S64x128 v8 shapeCasts_S64x128_S64x128
  have v13 : FVec F S1x128 .f32 := shapeCast S1x128 v12 shapeCasts_S1x128_S1x128
  maximumf (addf (addf
      (matmul dot_S5000x64_S64x128_S5000x128_1_0_0_1_n_n none v3 v6 (constant S5000x128 .f32 0x00000000#32))
      (matmul dot_S5000x64_S64x128_S5000x128_1_0_0_1_n_n none v4 v9 (constant S5000x128 .f32 0x00000000#32)))
      (broadcastTo S5000x128 v13 broadcasts_S1x128_S5000x128))
    (broadcast S5000x128 (Scalar.ofBits .f32 0x00000000#32))

/-- The second layer of a block. -/
def layer2 (h1 : FVec F S5000x128 .f32) (v19 : Vec F S128x128 .bf16) (v22 : Vec F S1x128 .f32) :
    FVec F S5000x128 .f32 :=
  have v18 : FVec F S5000x128 .bf16 := truncf .bf16 h1 bitsLt_bf16_f32
  have v20 : FVec F S128x128 .bf16 := shapeCast S128x128 v19 shapeCasts_S128x128_S128x128
  have v23 : FVec F S1x128 .f32 := shapeCast S1x128 v22 shapeCasts_S1x128_S1x128
  maximumf (addf
      (matmul dot_S5000x128_S128x128_S5000x128_1_0_0_1_n_n none v18 v20 (constant S5000x128 .f32 0x00000000#32))
      (broadcastTo S5000x128 v23 broadcasts_S1x128_S5000x128))
    (broadcast S5000x128 (Scalar.ofBits .f32 0x00000000#32))

/-- The third product is taken of the two hidden layers. -/
theorem pay2_eq (v0 v1 : Vec F S5000x64 .f32) (v5 v8 : Vec F S64x128 .bf16) (v12 : Vec F S1x128 .f32)
    (v19 : Vec F S128x128 .bf16) (v22 : Vec F S1x128 .f32) (v29 : Vec F S128x64 .bf16) :
    k0_pay2 v0 v1 v5 v8 v12 v19 v22 v29
      = matmul dot_S5000x128_S128x64_S5000x64_1_0_0_1_n_n none
          (truncf .bf16 (layer2 (layer1 v0 v1 v5 v8 v12) v19 v22) bitsLt_bf16_f32 : FVec F S5000x128 .bf16)
          (shapeCast S128x64 v29 shapeCasts_S128x64_S128x64 : FVec F S128x64 .bf16)
          (constant S5000x64 .f32 0x00000000#32) := rfl

/-- The mean of each row as a column: the row sums laid out as a column and divided by 64. -/
def meanCol (h : FVec F S5000x64 .f32) : FVec F S5000x1 .f32 :=
  divf (shapeCast S5000x1 (multiReduction .add [1] S5000 h 0x00000000#32 reduces_S5000x64_S5000 (.inl rfl) rfl)
      shapeCasts_S5000_S5000x1) (broadcast S5000x1 (Scalar.ofBits .f32 0x42800000#32))

/-- A block less its rows' means. -/
def centred (h : FVec F S5000x64 .f32) : FVec F S5000x64 .f32 :=
  subf h (broadcastTo S5000x64 (meanCol h) broadcasts_S5000x1_S5000x64)

/-- The stored value as the normalisation of the third layer's block, scaled, shifted, and the features added. -/
theorem pay1_eq (v0 : Vec F S5000x64 .f32) (v31 v34 : FVec F S5000x64 .f32) (v54 v58 : Vec F S1x64 .f32) :
    k0_pay1 v0 v31 v34 v54 v58
      = addf (addf (mulf (mulf (centred (addf v31 v34))
            (broadcastTo S5000x64 (rsqrt (addf (meanCol (mulf (centred (addf v31 v34)) (centred (addf v31 v34))))
              (broadcast S5000x1 (Scalar.ofBits .f32 0x3727C5AC#32)))) broadcasts_S5000x1_S5000x64))
            (broadcastTo S5000x64 (shapeCast S1x64 v54 shapeCasts_S1x64_S1x64 : FVec F S1x64 .f32) broadcasts_S1x64_S5000x64))
            (broadcastTo S5000x64 (shapeCast S1x64 v58 shapeCasts_S1x64_S1x64 : FVec F S1x64 .f32) broadcasts_S1x64_S5000x64))
          v0 := rfl

end AnyInstance

theorem layer1_apply (v0 v1 : Vec Ideal S5000x64 .f32) (v5 v8 : Vec Ideal S64x128 .bf16) (v12 : Vec Ideal S1x128 .f32)
    (q : Fin 5000) (j : Fin 128) :
    layer1 (F := Ideal) v0 v1 v5 v8 v12 (ix2 q j)
      = hidden1 (fun c => v0 (ix2 q c)) (fun c => v1 (ix2 q c)) (fun c j => v5 (ix2 c j)) (fun c j => v8 (ix2 c j))
          (fun j => v12 (ix2 (0 : Fin 1) j)) j := by
  unfold layer1 hidden1
  dsimp only
  rw [maximumf_apply, addf_apply, addf_apply, product1, product1, biasRow_apply]
  simp only [truncf_apply, shapeCast_self]
  rfl

theorem layer2_apply (h1 : FVec Ideal S5000x128 .f32) (v19 : Vec Ideal S128x128 .bf16) (v22 : Vec Ideal S1x128 .f32)
    (q : Fin 5000) (j : Fin 128) :
    layer2 (F := Ideal) h1 v19 v22 (ix2 q j)
      = hidden2 (fun c => h1 (ix2 q c)) (fun c j => v19 (ix2 c j)) (fun j => v22 (ix2 (0 : Fin 1) j)) j := by
  unfold layer2 hidden2
  dsimp only
  rw [maximumf_apply, addf_apply, product2, biasRow_apply]
  simp only [truncf_apply, shapeCast_self]
  rfl

/-- The third product at (q, o): the second hidden layer of row q contracted with column o of the third matrix. -/
theorem pay2_apply (v0 v1 : Vec Ideal S5000x64 .f32) (v5 v8 : Vec Ideal S64x128 .bf16) (v12 : Vec Ideal S1x128 .f32)
    (v19 : Vec Ideal S128x128 .bf16) (v22 : Vec Ideal S1x128 .f32) (v29 : Vec Ideal S128x64 .bf16)
    (q : Fin 5000) (o : Fin 64) :
    k0_pay2 (F := Ideal) v0 v1 v5 v8 v12 v19 v22 v29 (ix2 q o)
      = ∑ c : Fin 128, hidden2 (hidden1 (fun c => v0 (ix2 q c)) (fun c => v1 (ix2 q c)) (fun c j => v5 (ix2 c j))
            (fun c j => v8 (ix2 c j)) (fun j => v12 (ix2 (0 : Fin 1) j))) (fun c j => v19 (ix2 c j))
            (fun j => v22 (ix2 (0 : Fin 1) j)) c * v29 (ix2 c o) := by
  rw [pay2_eq, product3]
  simp only [truncf_apply, shapeCast_self, layer2_apply, layer1_apply]

/-- The third bias row copied down the block. -/
theorem pay3_apply (v32 : Vec Ideal S1x64 .f32) (q : Fin 5000) (o : Fin 64) :
    k0_pay3 (F := Ideal) v32 (ix2 q o) = v32 (ix2 (0 : Fin 1) o) := by
  unfold k0_pay3
  exact biasRow_apply v32 _ _ q o

/-! ## The normalisation of a block -/

theorem meanCol_apply (h : FVec Ideal S5000x64 .f32) (q : Fin 5000) (u : Fin 1) :
    meanCol (F := Ideal) h (ix2 q u) = rowMean (fun k => h (ix2 q k)) := by
  unfold meanCol rowMean
  rw [divf_apply, shapeCast_a_a1_apply, multiReduction_add_rows]
  rfl

theorem centred_apply (h : FVec Ideal S5000x64 .f32) (q : Fin 5000) (j : Fin 64) :
    centred (F := Ideal) h (ix2 q j) = h (ix2 q j) - rowMean (fun k => h (ix2 q k)) := by
  unfold centred
  rw [subf_apply, broadcastTo_a1_ab_apply, meanCol_apply]

theorem pay1_apply (v0 : Vec Ideal S5000x64 .f32) (v31 v34 : FVec Ideal S5000x64 .f32) (v54 v58 : Vec Ideal S1x64 .f32)
    (q : Fin 5000) (o : Fin 64) :
    k0_pay1 (F := Ideal) v0 v31 v34 v54 v58 (ix2 q o)
      = normalised (fun k => v31 (ix2 q k) + v34 (ix2 q k)) (fun k => v54 (ix2 (0 : Fin 1) k))
          (fun k => v58 (ix2 (0 : Fin 1) k)) o + v0 (ix2 q o) := by
  rw [pay1_eq]
  simp only [addf_apply, mulf_apply, broadcastTo_a1_ab_apply, rsqrt_apply, meanCol_apply, centred_apply, biasRow_apply,
    broadcast_apply]
  rfl

/-! ## The whole body at an entry -/

/-- Entry (q, o) of what the body stores is the update of the node in row q of the block. -/
theorem body_apply (P0 P1 : Vec Ideal S5000x64 .f32) (P2 P3 : Vec Ideal S64x128 .bf16) (P4 : Vec Ideal S1x128 .f32)
    (P5 : Vec Ideal S128x128 .bf16) (P6 : Vec Ideal S1x128 .f32) (P7 : Vec Ideal S128x64 .bf16)
    (P8 P9 P10 : Vec Ideal S1x64 .f32) (q : Fin 5000) (o : Fin 64) :
    k0_pay1 (F := Ideal) P0 (k0_pay2 P0 P1 P2 P3 P4 P5 P6 P7) (k0_pay3 P8) P9 P10 (ix2 q o)
      = rowOut (fun c => P0 (ix2 q c)) (fun c => P1 (ix2 q c)) (fun c j => P2 (ix2 c j)) (fun c j => P3 (ix2 c j))
          (fun j => P4 (ix2 (0 : Fin 1) j)) (fun c j => P5 (ix2 c j)) (fun j => P6 (ix2 (0 : Fin 1) j))
          (fun c o => P7 (ix2 c o)) (fun o => P8 (ix2 (0 : Fin 1) o)) (fun o => P9 (ix2 (0 : Fin 1) o))
          (fun o => P10 (ix2 (0 : Fin 1) o)) o := by
  rw [pay1_apply]
  simp only [pay2_apply, pay3_apply]
  rfl

end Cert.KernelIdeal.BlockRows

end
-- ==== Proof.NodeBlocks.lean ====
/-
  From the blocks to the array.

  The grid has 20 points; point t takes rows 5000 t to 5000 t + 4999 of the node features and of the aggregated edge
  features, the whole of every weight, bias, scale and shift table, and writes rows 5000 t to 5000 t + 4999 of the
  result. What it writes at (q, o) of its block is the update of the node in row q of its two input blocks
  (BlockRows.body_apply), that is of node 5000 t + q of the tables, so point t writes block t of the one array
  NodeUpdate.nodeOut of the tables. Every row lies in the block of point row / 5000, so after the run the result
  array is that array.
-/
import proofs.«167824_j31877247271255_2_alg».proof.Proof.Gen.KernelIdeal.Value
import proofs.«167824_j31877247271255_2_alg».proof.Proof.BlockRows
import proofs.«167824_j31877247271255_2_alg».proof.Proof.NodeUpdate
import Idealize.ShloMosaic.Lib.Pipeline.Value
import Idealize.ShloMosaic.Lib.ValueIdx

noncomputable section

namespace Cert.KernelIdeal.NodeBlocks

open Cert.KernelIdeal Cert.KernelIdeal.Gen Cert.KernelIdeal.Value Idealize.ShloMosaic Idealize.ShloMosaic.TcCoe
open Idealize.SL.Sem Idealize.ShloMosaic.ValueIdx Cert.NodeUpdate Cert.KernelIdeal.BlockRows
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Every node's update, from the tables as the region finds them. -/
abbrev updated (d : Dev nD) : S100000x64.Idx → EReal :=
  nodeOut (V m d main_arg0) (V m d main_v4) (V m d main_v7) (V m d main_v8) (V m d main_v11) (V m d main_v9)
    (V m d main_v12) (V m d main_v10) (V m d main_v13) (V m d main_v14) (V m d main_v15)

/-! ## The index maps, decided over the 20 points -/

/-- The two row-blocked inputs move with the output; the output's block index is the point's, at most 19. -/
theorem index_rows : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_11.index t (0 : Fin 2) ≤ 19 ∧ win0_11.index t (1 : Fin 2) = 0 :=
  (by decide +kernel : ∀ t : Fin grid0.N, _)

/-- Every block of rows is some point's. -/
theorem index_onto : ∀ q0 : Fin 20, ∃ t : Fin cfg0.N, win0_11.index t = ![q0.val, 0] :=
  (by decide +kernel : ∀ q0 : Fin 20, ∃ t : Fin grid0.N, win0_11.index t = ![q0.val, 0])

/-! The other nine windows sit at block (0, 0) at every point. -/
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)

/-! ## A block's index in its array -/

/-- Row q of point t's block of a row-blocked table is row 5000 t + q of the table. -/
theorem emb0 (t : Fin cfg0.N) (q : Fin 5000) (k : Fin 64) (R : Fin 100000)
    (hR : R.val = win0_11.index t (0 : Fin 2) * 5000 + q.val) :
    ((cfg0.win 0).blk t).view.emb (ix2 q k) = ix2 R k := by
  obtain ⟨h0, h1, -⟩ := index_rows t
  funext a; apply Fin.ext
  match a with
  | ⟨0, _⟩ => show win0_0.index t (0 : Fin 2) * 5000 + 1 * q.val = R.val; omega
  | ⟨1, _⟩ => show win0_0.index t (1 : Fin 2) * 64 + 1 * k.val = k.val; omega

theorem emb1 (t : Fin cfg0.N) (q : Fin 5000) (k : Fin 64) (R : Fin 100000)
    (hR : R.val = win0_11.index t (0 : Fin 2) * 5000 + q.val) :
    ((cfg0.win 1).blk t).view.emb (ix2 q k) = ix2 R k := by
  obtain ⟨-, -, h0, h1, -⟩ := index_rows t
  funext a; apply Fin.ext
  match a with
  | ⟨0, _⟩ => show win0_1.index t (0 : Fin 2) * 5000 + 1 * q.val = R.val; omega
  | ⟨1, _⟩ => show win0_1.index t (1 : Fin 2) * 64 + 1 * k.val = k.val; omega

theorem emb11 (t : Fin cfg0.N) (q : Fin 5000) (k : Fin 64) (R : Fin 100000)
    (hR : R.val = win0_11.index t (0 : Fin 2) * 5000 + q.val) :
    ((cfg0.win 11).blk t).view.emb (ix2 q k) = ix2 R k := by
  obtain ⟨-, -, -, -, -, h1⟩ := index_rows t
  funext a; apply Fin.ext
  match a with
  | ⟨0, _⟩ => show win0_11.index t (0 : Fin 2) * 5000 + 1 * q.val = R.val; omega
  | ⟨1, _⟩ => show win0_11.index t (1 : Fin 2) * 64 + 1 * k.val = k.val; omega

theorem emb2 (t : Fin cfg0.N) (y : S64x128.Idx) : ((cfg0.win 2).blk t).view.emb y = y := by
  obtain ⟨h0, h1⟩ := index2 t
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem emb3 (t : Fin cfg0.N) (y : S64x128.Idx) : ((cfg0.win 3).blk t).view.emb y = y := by
  obtain ⟨h0, h1⟩ := index3 t
  funext a; apply Fin.ext
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem emb4 (t : Fin cfg0.N) (y : S1x128.Idx) : ((cfg0.win 4).blk t).view.emb y = y := by
  obtain ⟨h0, h1⟩ := index4 t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem emb5 (t : Fin cfg0.N) (y : S128x128.Idx) : ((cfg0.win 5).blk t).view.emb y = y := by
  obtain ⟨h0, h1⟩ := index5 t
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem emb6 (t : Fin cfg0.N) (y : S1x128.Idx) : ((cfg0.win 6).blk t).view.emb y = y := by
  obtain ⟨h0, h1⟩ := index6 t
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem emb7 (t : Fin cfg0.N) (y : S128x64.Idx) : ((cfg0.win 7).blk t).view.emb y = y := by
  obtain ⟨h0, h1⟩ := index7 t
  funext a; apply Fin.ext
  match a with
  | ⟨0, _⟩ => show win0_7.index t (0 : Fin 2) * 128 + 1 * (y 0).val = (y 0).val; omega
  | ⟨1, _⟩ => show win0_7.index t (1 : Fin 2) * 64 + 1 * (y 1).val = (y 1).val; omega

theorem emb8 (t : Fin cfg0.N) (y : S1x64.Idx) : ((cfg0.win 8).blk t).view.emb y = y := by
  obtain ⟨h0, h1⟩ := index8 t
  funext a; apply Fin.ext
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem emb9 (t : Fin cfg0.N) (y : S1x64.Idx) : ((cfg0.win 9).blk t).view.emb y = y := by
  obtain ⟨h0, h1⟩ := index9 t
  funext a; apply Fin.ext
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem emb10 (t : Fin cfg0.N) (y : S1x64.Idx) : ((cfg0.win 10).blk t).view.emb y = y := by
  obtain ⟨h0, h1⟩ := index10 t
  funext a; apply Fin.ext
  match a with
  | ⟨0, _⟩ => show win0_10.index t (0 : Fin 2) * 1 + 1 * (y 0).val = (y 0).val; omega
  | ⟨1, _⟩ => show win0_10.index t (1 : Fin 2) * 64 + 1 * (y 1).val = (y 1).val; omega

/-! ## A block read through its window

Reading a table through a window's block is the table at the block's index in it. Stated for any table, so that the
tables the region finds are never opened. -/

theorem read0_apply (X : S100000x64.Idx → EReal) (t : Fin cfg0.N) (y : S5000x64.Idx) :
    ((cfg0.win 0).blk t).view.read (Elt Ideal) X y = X (((cfg0.win 0).blk t).view.emb y) := rfl
theorem read1_apply (X : S100000x64.Idx → EReal) (t : Fin cfg0.N) (y : S5000x64.Idx) :
    ((cfg0.win 1).blk t).view.read (Elt Ideal) X y = X (((cfg0.win 1).blk t).view.emb y) := rfl
theorem read2_apply (X : S64x128.Idx → EReal) (t : Fin cfg0.N) (y : S64x128.Idx) :
    ((cfg0.win 2).blk t).view.read (Elt Ideal) X y = X (((cfg0.win 2).blk t).view.emb y) := rfl
theorem read3_apply (X : S64x128.Idx → EReal) (t : Fin cfg0.N) (y : S64x128.Idx) :
    ((cfg0.win 3).blk t).view.read (Elt Ideal) X y = X (((cfg0.win 3).blk t).view.emb y) := rfl
theorem read4_apply (X : S1x128.Idx → EReal) (t : Fin cfg0.N) (y : S1x128.Idx) :
    ((cfg0.win 4).blk t).view.read (Elt Ideal) X y = X (((cfg0.win 4).blk t).view.emb y) := rfl
theorem read5_apply (X : S128x128.Idx → EReal) (t : Fin cfg0.N) (y : S128x128.Idx) :
    ((cfg0.win 5).blk t).view.read (Elt Ideal) X y = X (((cfg0.win 5).blk t).view.emb y) := rfl
theorem read6_apply (X : S1x128.Idx → EReal) (t : Fin cfg0.N) (y : S1x128.Idx) :
    ((cfg0.win 6).blk t).view.read (Elt Ideal) X y = X (((cfg0.win 6).blk t).view.emb y) := rfl
theorem read7_apply (X : S128x64.Idx → EReal) (t : Fin cfg0.N) (y : S128x64.Idx) :
    ((cfg0.win 7).blk t).view.read (Elt Ideal) X y = X (((cfg0.win 7).blk t).view.emb y) := rfl
theorem read8_apply (X : S1x64.Idx → EReal) (t : Fin cfg0.N) (y : S1x64.Idx) :
    ((cfg0.win 8).blk t).view.read (Elt Ideal) X y = X (((cfg0.win 8).blk t).view.emb y) := rfl
theorem read9_apply (X : S1x64.Idx → EReal) (t : Fin cfg0.N) (y : S1x64.Idx) :
    ((cfg0.win 9).blk t).view.read (Elt Ideal) X y = X (((cfg0.win 9).blk t).view.emb y) := rfl
theorem read10_apply (X : S1x64.Idx → EReal) (t : Fin cfg0.N) (y : S1x64.Idx) :
    ((cfg0.win 10).blk t).view.read (Elt Ideal) X y = X (((cfg0.win 10).blk t).view.emb y) := rfl

/-! ## What a point writes back -/

/-- If a point's eleven blocks read the tables X, A, … at node R's row (for the two row-blocked ones) and whole (for
    the other nine), entry (q, o) of what the body stores is entry (R, o) of every node's update. Stated over
    variables; the blocks are put in afterwards. -/
theorem block_is_update (P0 P1 : Vec Ideal S5000x64 .f32) (P2 P3 : Vec Ideal S64x128 .bf16) (P4 : Vec Ideal S1x128 .f32)
    (P5 : Vec Ideal S128x128 .bf16) (P6 : Vec Ideal S1x128 .f32) (P7 : Vec Ideal S128x64 .bf16)
    (P8 P9 P10 : Vec Ideal S1x64 .f32) (X A : S100000x64.Idx → EReal) (Wx Wa : S64x128.Idx → EReal)
    (B0 : S1x128.Idx → EReal) (W1 : S128x128.Idx → EReal) (B1 : S1x128.Idx → EReal) (W2 : S128x64.Idx → EReal)
    (B2 Gm Bt : S1x64.Idx → EReal) (q : Fin 5000) (o : Fin 64) (R : Fin 100000)
    (h0 : ∀ k : Fin 64, P0 (ix2 q k) = X (ix2 R k)) (h1 : ∀ k : Fin 64, P1 (ix2 q k) = A (ix2 R k))
    (h2 : ∀ (k : Fin 64) (j : Fin 128), P2 (ix2 k j) = Wx (ix2 k j))
    (h3 : ∀ (k : Fin 64) (j : Fin 128), P3 (ix2 k j) = Wa (ix2 k j))
    (h4 : ∀ j : Fin 128, P4 (ix2 (0 : Fin 1) j) = B0 (ix2 (0 : Fin 1) j))
    (h5 : ∀ (k : Fin 128) (j : Fin 128), P5 (ix2 k j) = W1 (ix2 k j))
    (h6 : ∀ j : Fin 128, P6 (ix2 (0 : Fin 1) j) = B1 (ix2 (0 : Fin 1) j))
    (h7 : ∀ (k : Fin 128) (j : Fin 64), P7 (ix2 k j) = W2 (ix2 k j))
    (h8 : ∀ j : Fin 64, P8 (ix2 (0 : Fin 1) j) = B2 (ix2 (0 : Fin 1) j))
    (h9 : ∀ j : Fin 64, P9 (ix2 (0 : Fin 1) j) = Gm (ix2 (0 : Fin 1) j))
    (h10 : ∀ j : Fin 64, P10 (ix2 (0 : Fin 1) j) = Bt (ix2 (0 : Fin 1) j)) :
    k0_pay1 (F := Ideal) P0 (k0_pay2 P0 P1 P2 P3 P4 P5 P6 P7) (k0_pay3 P8) P9 P10 (ix2 q o)
      = nodeOut X A Wx Wa B0 W1 B1 W2 B2 Gm Bt (ix2 R o) := by
  rw [body_apply]
  simp only [h0, h1, h2, h3, h4, h5, h6, h7, h8, h9, h10]
  rfl

/-- Point t writes back block t of the array of every node's update. -/
theorem flushed_eq (d : Dev nD) (t : Fin cfg0.N) :
    (dats m 0 d).flushed 11 t = ((cfg0.win 11).blk t).view.read (Elt Ideal) (updated m d) := by
  show (cfg0.win 11).cut (grid0.coords t) ((dats m 0 d).after 11 t) = _
  rw [after0_11]
  unfold out0_11
  rw [View.canon_unit_zero zero_offsets]
  simp only [View.ld_unit_zero (S := S5000x64) zero_offsets, View.ld_unit_zero (S := S64x128) zero_offsets,
    View.ld_unit_zero (S := S1x128) zero_offsets, View.ld_unit_zero (S := S128x128) zero_offsets,
    View.ld_unit_zero (S := S128x64) zero_offsets, View.ld_unit_zero (S := S1x64) zero_offsets]
  refine funext fun (j : S5000x64.Idx) => ?_
  obtain ⟨q, o, rfl⟩ : ∃ (q : Fin 5000) (o : Fin 64), j = ix2 q o := ⟨j 0, j 1, eq_ix2 j⟩
  have hB : win0_11.index t (0 : Fin 2) ≤ 19 := (index_rows t).2.2.2.2.1
  have hq : q.val < 5000 := q.isLt
  obtain ⟨R, hR⟩ : ∃ R : Fin 100000, R.val = win0_11.index t (0 : Fin 2) * 5000 + q.val :=
    ⟨⟨win0_11.index t (0 : Fin 2) * 5000 + q.val, by omega⟩, rfl⟩
  refine (block_is_update (iblk m d 0 t) (iblk m d 1 t) (iblk m d 2 t) (iblk m d 3 t) (iblk m d 4 t) (iblk m d 5 t)
    (iblk m d 6 t) (iblk m d 7 t) (iblk m d 8 t) (iblk m d 9 t) (iblk m d 10 t) (V m d main_arg0) (V m d main_v4)
    (V m d main_v7) (V m d main_v8) (V m d main_v11) (V m d main_v9) (V m d main_v12) (V m d main_v10)
    (V m d main_v13) (V m d main_v14) (V m d main_v15) q o R ?_ ?_ ?_ ?_ ?_ ?_ ?_ ?_ ?_ ?_ ?_).trans ?_
  · intro k
    unfold iblk
    rw [read0_apply, emb0 t q k R hR]
  · intro k
    unfold iblk
    rw [read1_apply, emb1 t q k R hR]
  · intro k j
    unfold iblk
    rw [read2_apply, emb2]
  · intro k j
    unfold iblk
    rw [read3_apply, emb3]
  · intro j
    unfold iblk
    rw [read4_apply, emb4]
  · intro k j
    unfold iblk
    rw [read5_apply, emb5]
  · intro j
    unfold iblk
    rw [read6_apply, emb6]
  · intro k j
    unfold iblk
    rw [read7_apply, emb7]
  · intro j
    unfold iblk
    rw [read8_apply, emb8]
  · intro j
    unfold iblk
    rw [read9_apply, emb9]
  · intro j
    unfold iblk
    rw [read10_apply, emb10]
  · show _ = updated m d (((cfg0.win 11).blk t).view.emb (ix2 q o))
    rw [emb11 t q o R hR]

/-! ## The blocks cover the array -/

/-- An index of the array is in point t's block iff each coordinate is in the block's range on its axis. -/
theorem mem_blk (t : Fin cfg0.N) (i : S100000x64.Idx) :
    i ∈ ((cfg0.win 11).blk t).view.set ↔ ∀ a : Fin 2, win0_11.index t a * S5000x64.size a ≤ (i a).val
      ∧ (i a).val < win0_11.index t a * S5000x64.size a + S5000x64.size a := by
  show i ∈ ((View.whole main_v16).slice (win0_11.rect t)).set ↔ _
  rw [View.set_slice_whole, Rect.mem_set_unit]
  exact Iff.rfl

/-- Row r is in the block of point r / 5000. -/
theorem covered (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  obtain ⟨t, ht⟩ := index_onto ⟨(i 0).val / 5000, by omega⟩
  have q0 : win0_11.index t (0 : Fin 2) = (i 0).val / 5000 := congrFun ht 0
  have q1 : win0_11.index t (1 : Fin 2) = 0 := congrFun ht 1
  refine ⟨t, flush0_11 t, ?_⟩
  rw [mem_blk]
  intro a
  match a with
  | ⟨0, _⟩ =>
    show win0_11.index t (0 : Fin 2) * 5000 ≤ (i 0).val ∧ (i 0).val < win0_11.index t (0 : Fin 2) * 5000 + 5000
    omega
  | ⟨1, _⟩ =>
    show win0_11.index t (1 : Fin 2) * 64 ≤ (i 1).val ∧ (i 1).val < win0_11.index t (1 : Fin 2) * 64 + 64
    omega

/-! ## The array after the run -/

theorem final (d : Dev nD) : (dats m 0 d).arrAt 11 cfg0.N = updated m d :=
  (dats m 0 d).arrAt_eq_of_cover 11 (updated m d) (fun t _ => flushed_eq m d t) covered

/-- The run with the result array at every node's update of the tables the region finds, the arguments unchanged. -/
theorem run : θ_run defs (onTc (τ := τ) (main (F := Ideal))) ⟨m, fun _ => 0, ρ⟩ fun r => ∀ d : Dev nD,
      r.2.mem ((d : Thread nD τ).loc main_v16) = updated m d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6)
      ∧ r.2.mem ((d : Thread nD τ).loc main_arg7) = m ((d : Thread nD τ).loc main_arg7)
      ∧ r.2.mem ((d : Thread nD τ).loc main_arg8) = m ((d : Thread nD τ).loc main_arg8)
      ∧ r.2.mem ((d : Thread nD τ).loc main_arg9) = m ((d : Thread nD τ).loc main_arg9)
      ∧ r.2.mem ((d : Thread nD τ).loc main_arg10) = m ((d : Thread nD τ).loc main_arg10) :=
  (θ_run defs _ _).mono (fun r h d => ⟨(h d).1.trans (final m d), (h d).2⟩) (run_blocks m ρ)

end Cert.KernelIdeal.NodeBlocks

end
-- ==== Proof.TableForms.lean ====
/-
  The tables as a kernel holds them against the tables as the caller gives them.

  Before the kernel is launched the first-layer matrix W0 (128 x 128) is cut into its upper 64 rows and its lower 64
  rows, every matrix is narrowed to a shorter float format, and every bias, the scale and the shift, vectors of n
  entries, are reshaped to one-row matrices 1 x n. On extended reals narrowing changes nothing; row c of the upper
  cut is row c of W0 and row c of the lower cut is row 64 + c; entry (0, j) of a reshaped vector is its entry j. So
  the update of every node computed from the kernel's tables (NodeUpdate.nodeOut) is the update computed from the
  caller's (NodeUpdate.nodeOutOf).
-/
import proofs.«167824_j31877247271255_2_alg».proof.Proof.NodeUpdate
import Idealize.ShloMosaic.Lib.Pipeline.Value
import Idealize.ShloMosaic.Lib.ValueIdx

noncomputable section

namespace Cert.NodeUpdate

open Idealize.ShloMosaic Idealize.ShloMosaic.ValueIdx

/-- Row c of the upper 64 rows of a 128-row matrix. -/
theorem upperRows_apply (W0 : (⟨2, ![128, 128]⟩ : Shape).Idx → EReal)
    (h : (⟨2, ![128, 128]⟩ : Shape).Slices ![0, 0] ⟨2, ![64, 128]⟩) (c : Fin 64) (j : Fin 128) :
    extractStridedSlice ⟨2, ![64, 128]⟩ ![0, 0] W0 h (ix2 c j) = W0 (ix2 (lo c) j) :=
  extractStridedSlice_apply ![0, 0] W0 h (ix2 c j) (ix2 (lo c) j) (fun a => match a with
    | ⟨0, _⟩ => by show c.val = 0 + c.val; omega
    | ⟨1, _⟩ => by show j.val = 0 + j.val; omega)

/-- Row c of the lower 64 rows is row 64 + c. -/
theorem lowerRows_apply (W0 : (⟨2, ![128, 128]⟩ : Shape).Idx → EReal)
    (h : (⟨2, ![128, 128]⟩ : Shape).Slices ![64, 0] ⟨2, ![64, 128]⟩) (c : Fin 64) (j : Fin 128) :
    extractStridedSlice ⟨2, ![64, 128]⟩ ![64, 0] W0 h (ix2 c j) = W0 (ix2 (hi c) j) :=
  extractStridedSlice_apply ![64, 0] W0 h (ix2 c j) (ix2 (hi c) j) (fun a => match a with
    | ⟨0, _⟩ => by show 64 + c.val = 64 + c.val; omega
    | ⟨1, _⟩ => by show j.val = 0 + j.val; omega)

/-- Entry (0, j) of a vector reshaped to one row is its entry j. -/
theorem oneRow_apply {n : Nat} (b : (⟨1, ![n]⟩ : Shape).Idx → EReal) (h : (⟨1, ![n]⟩ : Shape).ShapeCasts ⟨2, ![1, n]⟩)
    (j : Fin n) : shapeCast ⟨2, ![1, n]⟩ b h (ix2 (0 : Fin 1) j) = b (ix1 j) :=
  shapeCast_apply b h _ _ (by
    rw [Shape.rowMajor_val_two, Shape.rowMajor_val_one]
    show j.val = 0 * n + j.val
    omega)

/-- The update from the kernel's tables is the update from the caller's. -/
theorem nodeOut_of_tables (X A : (⟨2, ![100000, 64]⟩ : Shape).Idx → EReal) (W0 : (⟨2, ![128, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 g beta : (⟨1, ![64]⟩ : Shape).Idx → EReal)
    (hu : (⟨2, ![128, 128]⟩ : Shape).Slices ![0, 0] ⟨2, ![64, 128]⟩)
    (hl : (⟨2, ![128, 128]⟩ : Shape).Slices ![64, 0] ⟨2, ![64, 128]⟩)
    (hlt : FTy.bits .bf16 < FTy.bits .f32)
    (h128 : (⟨1, ![128]⟩ : Shape).ShapeCasts ⟨2, ![1, 128]⟩) (h64 : (⟨1, ![64]⟩ : Shape).ShapeCasts ⟨2, ![1, 64]⟩) :
    nodeOut X A
        (truncf (F := Ideal) .bf16 (extractStridedSlice ⟨2, ![64, 128]⟩ ![0, 0] W0 hu : FVec Ideal ⟨2, ![64, 128]⟩ .f32) hlt)
        (truncf (F := Ideal) .bf16 (extractStridedSlice ⟨2, ![64, 128]⟩ ![64, 0] W0 hl : FVec Ideal ⟨2, ![64, 128]⟩ .f32) hlt)
        (shapeCast ⟨2, ![1, 128]⟩ b0 h128) (truncf (F := Ideal) .bf16 (W1 : FVec Ideal ⟨2, ![128, 128]⟩ .f32) hlt)
        (shapeCast ⟨2, ![1, 128]⟩ b1 h128) (truncf (F := Ideal) .bf16 (W2 : FVec Ideal ⟨2, ![128, 64]⟩ .f32) hlt)
        (shapeCast ⟨2, ![1, 64]⟩ b2 h64) (shapeCast ⟨2, ![1, 64]⟩ g h64) (shapeCast ⟨2, ![1, 64]⟩ beta h64)
      = nodeOutOf X A W0 b0 W1 b1 W2 b2 g beta := by
  funext i
  unfold nodeOut nodeOutOf
  simp only [truncf_apply, upperRows_apply, lowerRows_apply, oneRow_apply]

end Cert.NodeUpdate

end
-- ==== Proof.HostTables.lean ====
/-
  The tables the region finds, and the kernel's result as a function of the arguments.

  Before the launch the program sums, for every node, the features of the edges that end at it (a scatter-add of the
  edge features into a zero table, by the second row of the edge list), cuts the first weight matrix into its upper
  and lower 64 rows, narrows every matrix to a shorter float format and reshapes every vector to one row. The arrays
  the kernel's windows are laid over are these operations' results. The scatter-add is the very term the reference
  computes from the same two arguments, so it is named by the reference's stage and never opened. With the tables so
  read, every node's update from the kernel's tables is the update from the caller's (NodeUpdate.nodeOut_of_tables):
  after the run the result array is NodeUpdate.nodeOutOf of the arguments.
-/
import proofs.«167824_j31877247271255_2_alg».proof.Proof.Gen.KernelIdeal.Frame
import proofs.«167824_j31877247271255_2_alg».proof.Proof.Gen.ReferenceIdeal.Read
import proofs.«167824_j31877247271255_2_alg».proof.Proof.NodeBlocks
import proofs.«167824_j31877247271255_2_alg».proof.Proof.TableForms
import Idealize.ShloMosaic.Lib.StableHlo.Run

noncomputable section

namespace Cert.KernelIdeal.HostTables

open Cert.KernelIdeal Cert.KernelIdeal.Gen Idealize.ShloMosaic Idealize.ShloMosaic.TcCoe Idealize.SL.Sem
open Idealize.ShloMosaic.StableHlo Cert.NodeUpdate

variable (m : (ℓ : Loc nD τ sig) → Buf (Elt Ideal) ℓ) (ρ : Dev nD → PrngReg)

/-- The aggregated edge features: the reference's scatter-add stage of the edge list and the edge features. -/
theorem aggregated (d : Dev nD) :
    (V m d main_v4 : S100000x64.Idx → EReal)
      = Cert.ReferenceIdeal.Read.val_main_v4 (F := Ideal) (m ((d : Thread nD τ).loc main_arg1)) (m ((d : Thread nD τ).loc main_arg2)) := by
  dsimp only [V, hostOps0]; after_results; rfl

/-- The upper 64 rows of the first weight matrix, narrowed. -/
theorem upperHalf (d : Dev nD) :
    (V m d main_v7 : S64x128.Idx → EReal)
      = truncf (F := Ideal) .bf16 (extractStridedSlice S64x128 ![0, 0] (m ((d : Thread nD τ).loc main_arg3)) slices_S128x128_S64x128_0_0 :
          FVec Ideal S64x128 .f32) bitsLt_bf16_f32 := by
  dsimp only [V, hostOps0]; after_results

/-- The lower 64 rows, narrowed. -/
theorem lowerHalf (d : Dev nD) :
    (V m d main_v8 : S64x128.Idx → EReal)
      = truncf (F := Ideal) .bf16 (extractStridedSlice S64x128 ![64, 0] (m ((d : Thread nD τ).loc main_arg3)) slices_S128x128_S64x128_64_0 :
          FVec Ideal S64x128 .f32) bitsLt_bf16_f32 := by
  dsimp only [V, hostOps0]; after_results

theorem secondWeights (d : Dev nD) :
    (V m d main_v9 : S128x128.Idx → EReal)
      = truncf (F := Ideal) .bf16 ((m ((d : Thread nD τ).loc main_arg5)) : FVec Ideal S128x128 .f32) bitsLt_bf16_f32 := by
  dsimp only [V, hostOps0]; after_results

theorem thirdWeights (d : Dev nD) :
    (V m d main_v10 : S128x64.Idx → EReal)
      = truncf (F := Ideal) .bf16 ((m ((d : Thread nD τ).loc main_arg7)) : FVec Ideal S128x64 .f32) bitsLt_bf16_f32 := by
  dsimp only [V, hostOps0]; after_results

theorem firstBias (d : Dev nD) :
    (V m d main_v11 : S1x128.Idx → EReal) = shapeCast S1x128 (m ((d : Thread nD τ).loc main_arg4)) shapeCasts_S128_S1x128 := by
  dsimp only [V, hostOps0]; after_results; rfl

theorem secondBias (d : Dev nD) :
    (V m d main_v12 : S1x128.Idx → EReal) = shapeCast S1x128 (m ((d : Thread nD τ).loc main_arg6)) shapeCasts_S128_S1x128 := by
  dsimp only [V, hostOps0]; after_results; rfl

theorem thirdBias (d : Dev nD) :
    (V m d main_v13 : S1x64.Idx → EReal) = shapeCast S1x64 (m ((d : Thread nD τ).loc main_arg8)) shapeCasts_S64_S1x64 := by
  dsimp only [V, hostOps0]; after_results; rfl

theorem scaleRow (d : Dev nD) :
    (V m d main_v14 : S1x64.Idx → EReal) = shapeCast S1x64 (m ((d : Thread nD τ).loc main_arg9)) shapeCasts_S64_S1x64 := by
  dsimp only [V, hostOps0]; after_results; rfl

theorem shiftRow (d : Dev nD) :
    (V m d main_v15 : S1x64.Idx → EReal) = shapeCast S1x64 (m ((d : Thread nD τ).loc main_arg10)) shapeCasts_S64_S1x64 := by
  dsimp only [V, hostOps0]; after_results; rfl

/-- Every node's update from the tables the region finds is the update from the arguments. -/
theorem updated_eq (d : Dev nD) :
    NodeBlocks.updated m d
      = nodeOutOf (m ((d : Thread nD τ).loc main_arg0))
          (Cert.ReferenceIdeal.Read.val_main_v4 (F := Ideal) (m ((d : Thread nD τ).loc main_arg1)) (m ((d : Thread nD τ).loc main_arg2)))
          (m ((d : Thread nD τ).loc main_arg3)) (m ((d : Thread nD τ).loc main_arg4)) (m ((d : Thread nD τ).loc main_arg5)) (m ((d : Thread nD τ).loc main_arg6)) (m ((d : Thread nD τ).loc main_arg7))
          (m ((d : Thread nD τ).loc main_arg8)) (m ((d : Thread nD τ).loc main_arg9)) (m ((d : Thread nD τ).loc main_arg10)) := by
  show nodeOut (V m d main_arg0) (V m d main_v4) (V m d main_v7) (V m d main_v8) (V m d main_v11) (V m d main_v9)
    (V m d main_v12) (V m d main_v10) (V m d main_v13) (V m d main_v14) (V m d main_v15) = _
  rw [V_main_arg0 m d, aggregated m d, upperHalf m d, lowerHalf m d, firstBias m d, secondWeights m d, secondBias m d,
    thirdWeights m d, thirdBias m d, scaleRow m d, shiftRow m d]
  exact nodeOut_of_tables _ _ _ _ _ _ _ _ _ _ _ _ _ _ _

/-- The kernel's run: the result array ends at every node's update of the arguments, the arguments unchanged. -/
theorem run : θ_run defs (onTc (τ := τ) (main (F := Ideal))) ⟨m, fun _ => 0, ρ⟩ fun r => ∀ d : Dev nD,
      r.2.mem ((d : Thread nD τ).loc main_v16)
        = nodeOutOf (m ((d : Thread nD τ).loc main_arg0))
            (Cert.ReferenceIdeal.Read.val_main_v4 (F := Ideal) (m ((d : Thread nD τ).loc main_arg1)) (m ((d : Thread nD τ).loc main_arg2)))
            (m ((d : Thread nD τ).loc main_arg3)) (m ((d : Thread nD τ).loc main_arg4)) (m ((d : Thread nD τ).loc main_arg5)) (m ((d : Thread nD τ).loc main_arg6)) (m ((d : Thread nD τ).loc main_arg7))
            (m ((d : Thread nD τ).loc main_arg8)) (m ((d : Thread nD τ).loc main_arg9)) (m ((d : Thread nD τ).loc main_arg10))
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6)
      ∧ r.2.mem ((d : Thread nD τ).loc main_arg7) = m ((d : Thread nD τ).loc main_arg7)
      ∧ r.2.mem ((d : Thread nD τ).loc main_arg8) = m ((d : Thread nD τ).loc main_arg8)
      ∧ r.2.mem ((d : Thread nD τ).loc main_arg9) = m ((d : Thread nD τ).loc main_arg9)
      ∧ r.2.mem ((d : Thread nD τ).loc main_arg10) = m ((d : Thread nD τ).loc main_arg10) :=
  (θ_run defs _ _).mono (fun r h d => ⟨(h d).1.trans (updated_eq m d), (h d).2⟩) (NodeBlocks.run m ρ)

end Cert.KernelIdeal.HostTables

end
-- ==== Proof.RefRows.lean ====
/-
  The reference's result, read at one entry.

  The reference lays each node's features and its aggregated edge features side by side as one row of 128 entries,
  multiplies the table of such rows by the first 128 x 128 matrix, and goes on as the node update does: bias, maximum
  with zero, the second and third products, the normalisation of each row of 64 by its mean and mean squared deviation,
  scale, shift, and the features added back. Read at (r, o), stage by stage, every operation reads row r alone; the
  joined row contracted with a column of the first matrix is the features contracted with the column's upper half plus
  the aggregated edge features contracted with its lower half (NodeUpdate.split_contraction). The host's sum of a row
  starts from the zero word, which is 0. So the reference's result is NodeUpdate.nodeOutOf of its arguments, the
  aggregated edge features being whatever the scatter-add of the edge features produced (it is kept as one term).
-/
import proofs.«167824_j31877247271255_2_alg».proof.Proof.Gen.ReferenceIdeal.Read
import proofs.«167824_j31877247271255_2_alg».proof.Proof.NodeUpdate
import proofs.«167824_j31877247271255_2_alg».proof.Proof.LibJoinedRows
import Idealize.ShloMosaic.Lib.Pipeline.Value
import Idealize.ShloMosaic.Lib.ValueIdx
import Idealize.ShloMosaic.PureOps.Ideal.Laws

noncomputable section

open scoped BigOperators

namespace Cert.ReferenceIdeal.RefRows

open Cert.ReferenceIdeal Cert.ReferenceIdeal.Gen Cert.ReferenceIdeal.Read Idealize.ShloMosaic Idealize.ShloMosaic.TcCoe
open Idealize.ShloMosaic.ValueIdx Cert.NodeUpdate

variable (x0 : (⟨S100000x64, .f32⟩ : BufTy).Contents (Elt Ideal)) (x1 : (⟨S2x1200000, .i32⟩ : BufTy).Contents (Elt Ideal))
  (x2 : (⟨S1200000x64, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 x9 x10 : (⟨S64, .f32⟩ : BufTy).Contents (Elt Ideal))

/-! ## The rows of the specification at node r -/

/-- The first hidden layer of node r. -/
abbrev first (r : Fin 100000) : Fin 128 → EReal :=
  hidden1 (fun c => x0 (ix2 r c)) (fun c => val_main_v4 (F := Ideal) x1 x2 (ix2 r c)) (fun c j => x3 (ix2 (lo c) j))
    (fun c j => x3 (ix2 (hi c) j)) (fun j => x4 (ix1 j))

/-- The second hidden layer of node r. -/
abbrev second (r : Fin 100000) : Fin 128 → EReal :=
  hidden2 (first x0 x1 x2 x3 x4 r) (fun c j => x5 (ix2 c j)) (fun j => x6 (ix1 j))

/-- The third layer of node r. -/
abbrev third (r : Fin 100000) : Fin 64 → EReal :=
  projected (second x0 x1 x2 x3 x4 x5 x6 r) (fun c o => x7 (ix2 c o)) (fun o => x8 (ix1 o))

/-! ## Vectors broadcast along the rows, and the zero tables -/

theorem bias0_at (r : Fin 100000) (j : Fin 128) : val_main_v8 (F := Ideal) x4 (ix2 r j) = x4 (ix1 j) := by
  rw [val_main_v8_apply, val_main_v7_apply]
  exact congrArg x4 (funext fun a => Fin.ext (by match a with | ⟨0, _⟩ => rfl))

theorem bias1_at (r : Fin 100000) (j : Fin 128) : val_main_v13 (F := Ideal) x6 (ix2 r j) = x6 (ix1 j) := by
  rw [val_main_v13_apply, val_main_v12_apply]
  exact congrArg x6 (funext fun a => Fin.ext (by match a with | ⟨0, _⟩ => rfl))

theorem bias2_at (r : Fin 100000) (o : Fin 64) : val_main_v18 (F := Ideal) x8 (ix2 r o) = x8 (ix1 o) := by
  rw [val_main_v18_apply, val_main_v17_apply]
  exact congrArg x8 (funext fun a => Fin.ext (by match a with | ⟨0, _⟩ => rfl))

theorem gain_at (r : Fin 100000) (o : Fin 64) : val_main_v39 (F := Ideal) x9 (ix2 r o) = x9 (ix1 o) := by
  rw [val_main_v39_apply, val_main_v38_apply]
  exact congrArg x9 (funext fun a => Fin.ext (by match a with | ⟨0, _⟩ => rfl))

theorem shift_at (r : Fin 100000) (o : Fin 64) : val_main_v42 (F := Ideal) x10 (ix2 r o) = x10 (ix1 o) := by
  rw [val_main_v42_apply, val_main_v41_apply]
  exact congrArg x10 (funext fun a => Fin.ext (by match a with | ⟨0, _⟩ => rfl))

theorem zero0_at (i : S100000x128.Idx) : val_main_call0_v0 (F := Ideal) i = zeroW := by
  rw [val_main_call0_v0_apply, val_main_call0_cst_apply]
  rfl

theorem zero1_at (i : S100000x128.Idx) : val_main_call1_v0 (F := Ideal) i = zeroW := by
  rw [val_main_call1_v0_apply, val_main_call1_cst_apply]
  rfl

/-! ## The joined row -/

/-- The first 64 entries of the joined row of node r are its features. -/
theorem joined_lo (r : Fin 100000) (c : Fin 64) : val_main_v5 (F := Ideal) x0 x1 x2 (ix2 r (lo c)) = x0 (ix2 r c) := by
  unfold val_main_v5
  exact Cert.JoinedRows.joined_left (N := 100000) (a := 64) (b := 64) x0 _
    concatenates_S100000x64_S100000x64_S100000x128_d1 r c

/-- The last 64 are its aggregated edge features. -/
theorem joined_hi (r : Fin 100000) (c : Fin 64) :
    val_main_v5 (F := Ideal) x0 x1 x2 (ix2 r (hi c)) = val_main_v4 (F := Ideal) x1 x2 (ix2 r c) := by
  unfold val_main_v5
  exact Cert.JoinedRows.joined_right (N := 100000) (a := 64) (b := 64) x0 _
    concatenates_S100000x64_S100000x64_S100000x128_d1 r c

/-! ## The three layers -/

/-- The first product at (r, j): the joined row against column j, split at its middle. -/
theorem product0_at (r : Fin 100000) (j : Fin 128) :
    val_main_v6 (F := Ideal) x0 x1 x2 x3 (ix2 r j)
      = (∑ c : Fin 64, x0 (ix2 r c) * x3 (ix2 (lo c) j))
        + ∑ c : Fin 64, val_main_v4 (F := Ideal) x1 x2 (ix2 r c) * x3 (ix2 (hi c) j) := by
  rw [val_main_v6_apply]
  refine Eq.trans (Finset.sum_congr rfl fun k _ => ?_)
    (split_contraction (fun c => x0 (ix2 r c)) (fun c => val_main_v4 (F := Ideal) x1 x2 (ix2 r c))
      (fun k => val_main_v5 (F := Ideal) x0 x1 x2 (ix2 r k)) (fun k => x3 (ix2 k j)) (joined_lo x0 x1 x2 r)
      (joined_hi x0 x1 x2 r))
  have e1 : lidx_main_v6 (ix2 r j) k = ix2 r k := funext fun a => Fin.ext (by match a with | ⟨0, _⟩ => rfl | ⟨1, _⟩ => rfl)
  have e2 : ridx_main_v6 (ix2 r j) k = ix2 k j := funext fun a => Fin.ext (by match a with | ⟨0, _⟩ => rfl | ⟨1, _⟩ => rfl)
  rw [e1, e2]

theorem first_at (r : Fin 100000) (j : Fin 128) :
    val_main_v10 (F := Ideal) x0 x1 x2 x3 x4 (ix2 r j) = first x0 x1 x2 x3 x4 r j := by
  rw [val_main_v10_apply, val_main_v9_apply, product0_at, bias0_at, zero0_at]
  rfl

theorem product1_at (r : Fin 100000) (j : Fin 128) :
    val_main_v11 (F := Ideal) x0 x1 x2 x3 x4 x5 (ix2 r j) = ∑ c : Fin 128, first x0 x1 x2 x3 x4 r c * x5 (ix2 c j) := by
  rw [val_main_v11_apply]
  refine Finset.sum_congr rfl fun k _ => ?_
  have e1 : lidx_main_v11 (ix2 r j) k = ix2 r k := funext fun a => Fin.ext (by match a with | ⟨0, _⟩ => rfl | ⟨1, _⟩ => rfl)
  have e2 : ridx_main_v11 (ix2 r j) k = ix2 k j := funext fun a => Fin.ext (by match a with | ⟨0, _⟩ => rfl | ⟨1, _⟩ => rfl)
  rw [e1, e2, first_at]

theorem second_at (r : Fin 100000) (j : Fin 128) :
    val_main_v15 (F := Ideal) x0 x1 x2 x3 x4 x5 x6 (ix2 r j) = second x0 x1 x2 x3 x4 x5 x6 r j := by
  rw [val_main_v15_apply, val_main_v14_apply, product1_at, bias1_at, zero1_at]
  rfl

theorem product2_at (r : Fin 100000) (o : Fin 64) :
    val_main_v16 (F := Ideal) x0 x1 x2 x3 x4 x5 x6 x7 (ix2 r o)
      = ∑ c : Fin 128, second x0 x1 x2 x3 x4 x5 x6 r c * x7 (ix2 c o) := by
  rw [val_main_v16_apply]
  refine Finset.sum_congr rfl fun k _ => ?_
  have e1 : lidx_main_v16 (ix2 r o) k = ix2 r k := funext fun a => Fin.ext (by match a with | ⟨0, _⟩ => rfl | ⟨1, _⟩ => rfl)
  have e2 : ridx_main_v16 (ix2 r o) k = ix2 k o := funext fun a => Fin.ext (by match a with | ⟨0, _⟩ => rfl | ⟨1, _⟩ => rfl)
  rw [e1, e2, second_at]

theorem third_at (r : Fin 100000) (o : Fin 64) :
    val_main_v19 (F := Ideal) x0 x1 x2 x3 x4 x5 x6 x7 x8 (ix2 r o) = third x0 x1 x2 x3 x4 x5 x6 x7 x8 r o := by
  rw [val_main_v19_apply, product2_at, bias2_at]
  rfl

/-! ## The normalisation -/

/-- The mean of the third layer's row, as the column the reference keeps it in. -/
theorem mean_at (r : Fin 100000) (u : Fin 1) :
    val_main_v23 (F := Ideal) x0 x1 x2 x3 x4 x5 x6 x7 x8 (ix2 r u) = rowMean (third x0 x1 x2 x3 x4 x5 x6 x7 x8 r) := by
  rw [val_main_v23_apply, val_main_v21_apply, val_main_v20_apply, val_main_v22_apply, val_main_cst_1_apply,
    val_main_cst_0_apply, Ideal.hostDivf_def, Ideal.ofBits_def, Ideal.ofBits_def, Ideal.ofBits_zero_f32, zero_add]
  show Ideal.div _ _ = Ideal.div _ _
  congr 1
  refine Finset.sum_congr rfl fun k _ => ?_
  have e : idx_main_v20 (idx_main_v21 (ix2 r u)) k = ix2 r k := funext fun a => Fin.ext (by match a with | ⟨0, _⟩ => rfl | ⟨1, _⟩ => rfl)
  rw [e, third_at]

theorem centred_at (r : Fin 100000) (o : Fin 64) :
    val_main_v25 (F := Ideal) x0 x1 x2 x3 x4 x5 x6 x7 x8 (ix2 r o)
      = third x0 x1 x2 x3 x4 x5 x6 x7 x8 r o - rowMean (third x0 x1 x2 x3 x4 x5 x6 x7 x8 r) := by
  have e : idx_main_v24 (ix2 r o) = ix2 r (0 : Fin 1) := funext fun a => Fin.ext (by match a with | ⟨0, _⟩ => rfl | ⟨1, _⟩ => rfl)
  rw [val_main_v25_apply, val_main_v24_apply, e, third_at, mean_at]
  rfl

theorem centred_again_at (r : Fin 100000) (o : Fin 64) :
    val_main_v32 (F := Ideal) x0 x1 x2 x3 x4 x5 x6 x7 x8 (ix2 r o)
      = third x0 x1 x2 x3 x4 x5 x6 x7 x8 r o - rowMean (third x0 x1 x2 x3 x4 x5 x6 x7 x8 r) := by
  have e : idx_main_v31 (ix2 r o) = ix2 r (0 : Fin 1) := funext fun a => Fin.ext (by match a with | ⟨0, _⟩ => rfl | ⟨1, _⟩ => rfl)
  rw [val_main_v32_apply, val_main_v31_apply, e, third_at, mean_at]
  rfl

/-- The mean squared deviation of the third layer's row. -/
theorem spread_at (r : Fin 100000) (u : Fin 1) :
    val_main_v30 (F := Ideal) x0 x1 x2 x3 x4 x5 x6 x7 x8 (ix2 r u)
      = rowMean (fun k => (third x0 x1 x2 x3 x4 x5 x6 x7 x8 r k - rowMean (third x0 x1 x2 x3 x4 x5 x6 x7 x8 r))
          * (third x0 x1 x2 x3 x4 x5 x6 x7 x8 r k - rowMean (third x0 x1 x2 x3 x4 x5 x6 x7 x8 r))) := by
  rw [val_main_v30_apply, val_main_v28_apply, val_main_v27_apply, val_main_v29_apply, val_main_cst_3_apply,
    val_main_cst_2_apply, Ideal.hostDivf_def, Ideal.ofBits_def, Ideal.ofBits_def, Ideal.ofBits_zero_f32, zero_add]
  show Ideal.div _ _ = Ideal.div _ _
  congr 1
  refine Finset.sum_congr rfl fun k _ => ?_
  have e : idx_main_v27 (idx_main_v28 (ix2 r u)) k = ix2 r k := funext fun a => Fin.ext (by match a with | ⟨0, _⟩ => rfl | ⟨1, _⟩ => rfl)
  rw [e, val_main_v26_apply, centred_at]
  rfl

/-- The inverse square root of the guarded mean squared deviation. -/
theorem scale_at (r : Fin 100000) (u : Fin 1) :
    val_main_v35 (F := Ideal) x0 x1 x2 x3 x4 x5 x6 x7 x8 (ix2 r u)
      = Ideal.rsqrt (rowMean (fun k => (third x0 x1 x2 x3 x4 x5 x6 x7 x8 r k - rowMean (third x0 x1 x2 x3 x4 x5 x6 x7 x8 r))
          * (third x0 x1 x2 x3 x4 x5 x6 x7 x8 r k - rowMean (third x0 x1 x2 x3 x4 x5 x6 x7 x8 r))) + guardW) := by
  rw [val_main_v35_apply, val_main_v34_apply, spread_at, val_main_v33_apply, val_main_cst_4_apply]
  rfl

/-! ## The result -/

/-- Entry (r, o) of the reference's result is the update of node r. -/
theorem reference_at (r : Fin 100000) (o : Fin 64) :
    val_main_v44 (F := Ideal) x0 x1 x2 x3 x4 x5 x6 x7 x8 x9 x10 (ix2 r o)
      = rowOut (fun c => x0 (ix2 r c)) (fun c => val_main_v4 (F := Ideal) x1 x2 (ix2 r c)) (fun c j => x3 (ix2 (lo c) j))
          (fun c j => x3 (ix2 (hi c) j)) (fun j => x4 (ix1 j)) (fun c j => x5 (ix2 c j)) (fun j => x6 (ix1 j))
          (fun c o => x7 (ix2 c o)) (fun o => x8 (ix1 o)) (fun o => x9 (ix1 o)) (fun o => x10 (ix1 o)) o := by
  have e : idx_main_v36 (ix2 r o) = ix2 r (0 : Fin 1) := funext fun a => Fin.ext (by match a with | ⟨0, _⟩ => rfl | ⟨1, _⟩ => rfl)
  rw [val_main_v44_apply, val_main_v43_apply, val_main_v40_apply, val_main_v37_apply, centred_again_at,
    val_main_v36_apply, e, scale_at, gain_at, shift_at]
  rfl

/-- The reference's result is the node update of its arguments, the aggregated edge features being the scatter-add's
    result. -/
theorem reference_eq :
    val_main_v44 (F := Ideal) x0 x1 x2 x3 x4 x5 x6 x7 x8 x9 x10
      = nodeOutOf x0 (val_main_v4 (F := Ideal) x1 x2) x3 x4 x5 x6 x7 x8 x9 x10 := by
  funext i
  obtain ⟨r, o, rfl⟩ : ∃ (r : Fin 100000) (o : Fin 64), i = ix2 r o := ⟨i 0, i 1, eq_ix2 i⟩
  exact reference_at x0 x1 x2 x3 x4 x5 x6 x7 x8 x9 x10 r o

end Cert.ReferenceIdeal.RefRows

end
-- ==== Proof.lean ====
/-
  A graph layer's node update, computed by a tiled kernel and by plain array code: the two agree on extended reals.

  Inputs: node features x [100000, 64], an edge list [2, 1200000], edge features [1200000, 64], three weight matrices
  with their biases, and a scale and a shift of 64 entries. Both programs first sum, for every node, the features of
  the edges that end at it (the same scatter-add of the same two arguments, so one term on both sides, never opened).
  Then every node r is updated from its own row of x and of the sums alone (NodeUpdate.rowOut): three affine layers,
  the first two followed by a maximum with zero, a normalisation of the 64 results by their mean and mean squared
  deviation, the scale and shift, and x_r added back.

  The kernel works on 20 blocks of 5000 nodes. One grid point's body computes, at entry (q, o) of its block, the
  update of the node in row q of its blocks (BlockRows.body_apply); point t's blocks are rows 5000 t .. 5000 t + 4999
  of the tables, so it writes block t of one array, and the 20 blocks cover the result (NodeBlocks.final). The
  kernel holds the first weight matrix as its upper and lower 64 rows and multiplies the features by the one, the
  sums by the other, and adds; the reference joins features and sums into rows of 128 and multiplies by the whole
  matrix. A sum over 128 indices is the sum over the first 64 plus the sum over the last 64
  (NodeUpdate.split_contraction): this is the one law of arithmetic the proof uses, and it holds for all extended
  reals, so the precondition is not opened. The kernel's narrowing of its operands to a shorter float format is the
  identity on extended reals, the kernel's and the host's division and inverse square root are the same total
  functions there, and both sums of a row start from the zero word, which is 0 (RefRows.reference_eq,
  HostTables.updated_eq). Reading the kernel on extended reals rewrites none of its operations, so that conjunct is True.
-/
import proofs.«167824_j31877247271255_2_alg».proof.Defs
import proofs.«167824_j31877247271255_2_alg».proof.Proof.Gen.Kernel
import proofs.«167824_j31877247271255_2_alg».proof.Proof.Gen.Kernel.Skeleton
import proofs.«167824_j31877247271255_2_alg».proof.Proof.Gen.Kernel.Launch
import proofs.«167824_j31877247271255_2_alg».proof.Proof.Gen.Kernel.Points
import proofs.«167824_j31877247271255_2_alg».proof.Proof.Gen.Kernel.Frame
import proofs.«167824_j31877247271255_2_alg».proof.Proof.Gen.KernelIdeal
import proofs.«167824_j31877247271255_2_alg».proof.Proof.Gen.KernelIdeal.Skeleton
import proofs.«167824_j31877247271255_2_alg».proof.Proof.Gen.KernelIdeal.Launch
import proofs.«167824_j31877247271255_2_alg».proof.Proof.Gen.KernelIdeal.Points
import proofs.«167824_j31877247271255_2_alg».proof.Proof.Gen.KernelIdeal.Frame
import proofs.«167824_j31877247271255_2_alg».proof.Proof.Gen.ReferenceIdeal
import proofs.«167824_j31877247271255_2_alg».proof.Proof.Gen.KernelIdeal.Value
import proofs.«167824_j31877247271255_2_alg».proof.Proof.Gen.ReferenceIdeal.Run
import proofs.«167824_j31877247271255_2_alg».proof.Proof.Gen.ReferenceIdeal.Read
import proofs.«167824_j31877247271255_2_alg».proof.Proof.Gen.Pre_finite_inputs
import proofs.«167824_j31877247271255_2_alg».proof.Proof.HostTables
import proofs.«167824_j31877247271255_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does the kernel read on extended reals. -/
theorem frame_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on extended reals rewrote none of its operations. -/
theorem preserves : Cert.preserves_Kernel_KernelIdeal := trivial

/-- From arguments that agree, the kernel's result array and the reference's both end at every node's update of the
    arguments. -/
theorem algebraic : Cert.algebraic_KernelIdeal_ReferenceIdeal := by
  intro m ρ m' ρ' _ hagree
  refine ⟨_, Cert.KernelIdeal.HostTables.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v44_eq, Cert.ReferenceIdeal.RefRows.reference_eq, a0, a1, a2, a3, a4, a5, a6,
    a7, a8, a9, a10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
